-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64x64 : Shape := ⟨3, ![8192, 64, 64]⟩
abbrev S_ : Shape := ⟨0, ![]⟩

class Facts : Prop where
  bcast_S_S8192x64x64 : S_.BroadcastsInDim S8192x64x64 (![] : Fin 0 → Fin S8192x64x64.rank)
  reducesTo_S8192x64x64_S_d0_1_2 : S8192x64x64.ReducesTo [0, 1, 2] S_
  h_S_ : 0 < S_.numel

variable [Facts]

def fn_part1 {F : FTy → Type} [FloatOps F] (main_arg4 : FVec F S8192x64x64 .f32) (main_v13 : IVec S_ 1) (main_v16 : IVec S8192x64x64 1) : IVec S_ 1 :=
  let main_c_5 : IVec S_ 1 := constantI S_ 1 1#1
  let main_v17 : IVec S_ 1 := (fun x v => Host.reduce IntOp.andi x v reducesTo_S8192x64x64_S_d0_1_2 h_S_) main_v16 main_c_5
  let main_v18 : IVec S_ 1 := andi main_v13 main_v17
  let main_v19 : FVec F S8192x64x64 .f32 := Host.absf main_arg4
  let main_cst_6 : FVec F S_ .f32 := constant S_ .f32 0x7F800000#32
  let main_v20 : FVec F S8192x64x64 .f32 := broadcastInDim S8192x64x64 ![] bcast_S_S8192x64x64 main_cst_6
  let main_v21 : IVec S8192x64x64 1 := cmpf .olt main_v19 main_v20
  let main_c_7 : IVec S_ 1 := constantI S_ 1 1#1
  let main_v22 : IVec S_ 1 := (fun x v => Host.reduce IntOp.andi x v reducesTo_S8192x64x64_S_d0_1_2 h_S_) main_v21 main_c_7
  let main_v23 : IVec S_ 1 := andi main_v18 main_v22
  main_v23

def fn {F : FTy → Type} [FloatOps F] (main_arg0 : FVec F S8192x64x64 .f32) (main_arg1 : FVec F S8192x64x64 .f32) (main_arg2 : FVec F S8192x64x64 .f32) (main_arg3 : FVec F S8192x64x64 .f32) (main_arg4 : FVec F S8192x64x64 .f32) : IVec S_ 1 :=
  let main_v0 : FVec F S8192x64x64 .f32 := Host.absf main_arg0
  let main_cst : FVec F S_ .f32 := constant S_ .f32 0x7F800000#32
  let main_v1 : FVec F S8192x64x64 .f32 := broadcastInDim S8192x64x64 ![] bcast_S_S8192x64x64 main_cst
  let main_v2 : IVec S8192x64x64 1 := cmpf .olt main_v0 main_v1
  let main_c : IVec S_ 1 := constantI S_ 1 1#1
  let main_v3 : IVec S_ 1 := (fun x v => Host.reduce IntOp.andi x v reducesTo_S8192x64x64_S_d0_1_2 h_S_) main_v2 main_c
  let main_v4 : FVec F S8192x64x64 .f32 := Host.absf main_arg1
  let main_cst_0 : FVec F S_ .f32 := constant S_ .f32 0x7F800000#32
  let main_v5 : FVec F S8192x64x64 .f32 := broadcastInDim S8192x64x64 ![] bcast_S_S8192x64x64 main_cst_0
  let main_v6 : IVec S8192x64x64 1 := cmpf .olt main_v4 main_v5
  let main_c_1 : IVec S_ 1 := constantI S_ 1 1#1
  let main_v7 : IVec S_ 1 := (fun x v => Host.reduce IntOp.andi x v reducesTo_S8192x64x64_S_d0_1_2 h_S_) main_v6 main_c_1
  let main_v8 : IVec S_ 1 := andi main_v3 main_v7
  let main_v9 : FVec F S8192x64x64 .f32 := Host.absf main_arg2
  let main_cst_2 : FVec F S_ .f32 := constant S_ .f32 0x7F800000#32
  let main_v10 : FVec F S8192x64x64 .f32 := broadcastInDim S8192x64x64 ![] bcast_S_S8192x64x64 main_cst_2
  let main_v11 : IVec S8192x64x64 1 := cmpf .olt main_v9 main_v10
  let main_c_3 : IVec S_ 1 := constantI S_ 1 1#1
  let main_v12 : IVec S_ 1 := (fun x v => Host.reduce IntOp.andi x v reducesTo_S8192x64x64_S_d0_1_2 h_S_) main_v11 main_c_3
  let main_v13 : IVec S_ 1 := andi main_v8 main_v12
  let main_v14 : FVec F S8192x64x64 .f32 := Host.absf main_arg3
  let main_cst_4 : FVec F S_ .f32 := constant S_ .f32 0x7F800000#32
  let main_v15 : FVec F S8192x64x64 .f32 := broadcastInDim S8192x64x64 ![] bcast_S_S8192x64x64 main_cst_4
  let main_v16 : IVec S8192x64x64 1 := cmpf .olt main_v14 main_v15
  fn_part1 (F := F) main_arg4 main_v13 main_v16
-- ==== Kernel.lean ====
abbrev S8192x64x64 : Shape := ⟨3, ![8192, 64, 64]⟩
abbrev S64x64x64 : Shape := ⟨3, ![64, 64, 64]⟩
abbrev S64x64 : Shape := ⟨2, ![64, 64]⟩
abbrev S64x64x1 : Shape := ⟨3, ![64, 64, 1]⟩

abbrev nBuf : Space → Nat
  | .hbm => 6
  | .vmem => 12
  | .smem => 0
  | _ => 0

abbrev bufTy : (tb : Table) → Fin (tcTables nBuf tb) → BufTy
  | .hbm, ⟨0, _⟩ => ⟨S8192x64x64, .f32⟩
  | .hbm, ⟨1, _⟩ => ⟨S8192x64x64, .f32⟩
  | .hbm, ⟨2, _⟩ => ⟨S8192x64x64, .f32⟩
  | .hbm, ⟨3, _⟩ => ⟨S8192x64x64, .f32⟩
  | .hbm, ⟨4, _⟩ => ⟨S8192x64x64, .f32⟩
  | .hbm, ⟨5, _⟩ => ⟨S8192x64x64, .f32⟩
  | .local _ .vmem, ⟨0, _⟩ => ⟨S64x64x64, .f32⟩
  | .local _ .vmem, ⟨1, _⟩ => ⟨S64x64x64, .f32⟩
  | .local _ .vmem, ⟨2, _⟩ => ⟨S64x64x64, .f32⟩
  | .local _ .vmem, ⟨3, _⟩ => ⟨S64x64x64, .f32⟩
  | .local _ .vmem, ⟨4, _⟩ => ⟨S64x64x64, .f32⟩
  | .local _ .vmem, ⟨5, _⟩ => ⟨S64x64x64, .f32⟩
  | .local _ .vmem, ⟨6, _⟩ => ⟨S64x64x64, .f32⟩
  | .local _ .vmem, ⟨7, _⟩ => ⟨S64x64x64, .f32⟩
  | .local _ .vmem, ⟨8, _⟩ => ⟨S64x64x64, .f32⟩
  | .local _ .vmem, ⟨9, _⟩ => ⟨S64x64x64, .f32⟩
  | .local _ .vmem, ⟨10, _⟩ => ⟨S64x64x64, .f32⟩
  | .local _ .vmem, ⟨11, _⟩ => ⟨S64x64x64, .f32⟩
  | _, _ => ⟨S8192x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S64x64x64_S64x64x64_0_0_0 : ∀ a, (![0, 0, 0] : Fin 3 → Nat) a + S64x64x64.size a ≤ S64x64x64.size a
  h_S64x64x64 : 0 < S64x64x64.numel
  bitsLt_bf16_f32 : FTy.bits .bf16 < FTy.bits .f32
  reduces_S64x64x64_S64x64 : S64x64x64.Reduces [2] S64x64
  shapeCasts_S64x64_S64x64x1 : S64x64.ShapeCasts S64x64x1
  broadcasts_S64x64x1_S64x64x64 : S64x64x1.Broadcasts S64x64x64
  dot_S64x64x64_S64x64x64_S64x64x64_2_2_1_1_0_0_wf : DotDims.WF S64x64x64 S64x64x64 S64x64x64 [2] [2] [1] [1] [0] [0]
  dot_S64x64x64_S64x64x64_S64x64x64_2_1_1_2_0_0_wf : DotDims.WF S64x64x64 S64x64x64 S64x64x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x64x64.size a ≤ S8192x64x64.size a
  hwx0_0 : ∀ i : grid0.Coords, EltTy.bits .f32 = 32 ∨ (Rect.block (s := S8192x64x64) S64x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x64x64.size a ≤ S8192x64x64.size a
  hwx0_1 : ∀ i : grid0.Coords, EltTy.bits .f32 = 32 ∨ (Rect.block (s := S8192x64x64) S64x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x64x64.size a ≤ S8192x64x64.size a
  hwx0_2 : ∀ i : grid0.Coords, EltTy.bits .f32 = 32 ∨ (Rect.block (s := S8192x64x64) S64x64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x64x64.size a ≤ S8192x64x64.size a
  hwx0_3 : ∀ i : grid0.Coords, EltTy.bits .f32 = 32 ∨ (Rect.block (s := S8192x64x64) S64x64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x64x64.size a ≤ S8192x64x64.size a
  hwx0_4 : ∀ i : grid0.Coords, EltTy.bits .f32 = 32 ∨ (Rect.block (s := S8192x64x64) S64x64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x64x64.size a ≤ S8192x64x64.size a
  hwx0_5 : ∀ i : grid0.Coords, EltTy.bits .f32 = 32 ∨ (Rect.block (s := S8192x64x64) S64x64x64.size (cc0_transform_5 i) (hinb0_5 i)).WholeWords (EltTy.packing .f32)

variable [Facts₀]

def dot_S64x64x64_S64x64x64_S64x64x64_2_2_1_1_0_0 : DotDims S64x64x64 S64x64x64 S64x64x64 where
  lhsContracting := [2]
  rhsContracting := [2]
  lhsNonContracting := [1]
  rhsNonContracting := [1]
  lhsBatch := [0]
  rhsBatch := [0]
  wf := dot_S64x64x64_S64x64x64_S64x64x64_2_2_1_1_0_0_wf
def dot_S64x64x64_S64x64x64_S64x64x64_2_1_1_2_0_0 : DotDims S64x64x64 S64x64x64 S64x64x64 where
  lhsContracting := [2]
  rhsContracting := [1]
  lhsNonContracting := [1]
  rhsNonContracting := [2]
  lhsBatch := [0]
  rhsBatch := [0]
  wf := dot_S64x64x64_S64x64x64_S64x64x64_2_1_1_2_0_0_wf

abbrev win0_0 : Pipeline.Window sig grid0 :=
  Pipeline.Window.ofSpec (Memref.whole main_arg0) S64x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S64x64x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x64x64 : Shape := ⟨3, ![8192, 64, 64]⟩
abbrev S_ : Shape := ⟨0, ![]⟩
abbrev S8192x64 : Shape := ⟨2, ![8192, 64]⟩
abbrev S8192x64x1 : Shape := ⟨3, ![8192, 64, 1]⟩

abbrev nBuf : Space → Nat
  | .hbm => 15
  | .vmem => 0
  | .smem => 0
  | _ => 0

abbrev bufTy : (tb : Table) → Fin (tcTables nBuf tb) → BufTy
  | .hbm, ⟨0, _⟩ => ⟨S8192x64x64, .f32⟩
  | .hbm, ⟨1, _⟩ => ⟨S8192x64x64, .f32⟩
  | .hbm, ⟨2, _⟩ => ⟨S8192x64x64, .f32⟩
  | .hbm, ⟨3, _⟩ => ⟨S8192x64x64, .f32⟩
  | .hbm, ⟨4, _⟩ => ⟨S8192x64x64, .f32⟩
  | .hbm, ⟨5, _⟩ => ⟨S8192x64x64, .f32⟩
  | .hbm, ⟨6, _⟩ => ⟨S8192x64x64, .f32⟩
  | .hbm, ⟨7, _⟩ => ⟨S_, .f32⟩
  | .hbm, ⟨8, _⟩ => ⟨S8192x64, .f32⟩
  | .hbm, ⟨9, _⟩ => ⟨S8192x64x1, .f32⟩
  | .hbm, ⟨10, _⟩ => ⟨S8192x64x64, .f32⟩
  | .hbm, ⟨11, _⟩ => ⟨S8192x64x64, .f32⟩
  | .hbm, ⟨12, _⟩ => ⟨S8192x64x64, .f32⟩
  | .hbm, ⟨13, _⟩ => ⟨S8192x64x64, .f32⟩
  | .hbm, ⟨14, _⟩ => ⟨S8192x64x64, .f32⟩
  | _, _ => ⟨S8192x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  reducesTo_S8192x64x64_S8192x64_d2 : S8192x64x64.ReducesTo [2] S8192x64
  h_S_ : 0 < S_.numel
  bcast_S8192x64_S8192x64x1_0_1 : S8192x64.BroadcastsInDim S8192x64x1 (![0, 1] : Fin 2 → Fin S8192x64x1.rank)
  bcast_S8192x64x1_S8192x64x64_0_1_2 : S8192x64x1.BroadcastsInDim S8192x64x64 (![0, 1, 2] : Fin 3 → Fin S8192x64x64.rank)
  dot_S8192x64x64_S8192x64x64_S8192x64x64_2_2_1_1_0_0_wf : DotDims.WF S8192x64x64 S8192x64x64 S8192x64x64 [2] [2] [1] [1] [0] [0]
  dot_S8192x64x64_S8192x64x64_S8192x64x64_2_1_1_2_0_0_wf : DotDims.WF S8192x64x64 S8192x64x64 S8192x64x64 [2] [1] [1] [2] [0] [0]

variable [Facts₀]

def dot_S8192x64x64_S8192x64x64_S8192x64x64_2_2_1_1_0_0 : DotDims S8192x64x64 S8192x64x64 S8192x64x64 where
  lhsContracting := [2]
  rhsContracting := [2]
  lhsNonContracting := [1]
  rhsNonContracting := [1]
  lhsBatch := [0]
  rhsBatch := [0]
  wf := dot_S8192x64x64_S8192x64x64_S8192x64x64_2_2_1_1_0_0_wf
def dot_S8192x64x64_S8192x64x64_S8192x64x64_2_1_1_2_0_0 : DotDims S8192x64x64 S8192x64x64 S8192x64x64 where
  lhsContracting := [2]
  rhsContracting := [1]
  lhsNonContracting := [1]
  rhsNonContracting := [2]
  lhsBatch := [0]
  rhsBatch := [0]
  wf := dot_S8192x64x64_S8192x64x64_S8192x64x64_2_1_1_2_0_0_wf

class Facts : Prop extends Facts₀ where

variable [Facts]
-- ==== Proof.Spec.lean ====
/-
  The function both programs compute, on an array of `n` independent tiles of 64 × 64 extended reals.

  For tile `b`, with Q, K, V, P, R its five 64 × 64 input matrices:
    S = Q Kᵀ                      (entry (i, j): the sum over l of Q[i, l] · K[j, l]),
    E = exp S                     entry by entry,
    W[i, j] = E[i, j] / Σ_j' E[i, j']   (each row of E divided by its row sum),
    C = W V,  O = C P             (plain matrix products, sums over the shared index),
    result = O + R.
  No law of arithmetic is used between the two programs: they spell the same sums, quotient and products in the
  same order, so the specification is stated once and each side is shown to be it, entry by entry.

  The second half says that the function is local to a tile: restricting the five inputs to some of the tiles
  (through any map `e` of tile numbers) and computing, is computing and then restricting. A grid point of the
  kernel works on 64 consecutive tiles, so what it writes is the whole-array function on those tiles.
-/
import Idealize.ShloMosaic.PureOps.Ideal
import Idealize.ShloMosaic.Lib.ValueIdx

noncomputable section

namespace Cert.Attn

open Idealize.ShloMosaic Idealize.ShloMosaic.ValueIdx

/-- An array of `n` tiles of 64 × 64 extended reals, indexed (tile, row, column). -/
abbrev Tiles (n : Nat) : Type := (⟨3, ![n, 64, 64]⟩ : Shape).Idx → EReal

variable {n : Nat}

/-- S = Q Kᵀ on tile `b`: entry (i, j) is the sum over l of Q[b, i, l] · K[b, j, l]. -/
def scores (q k : Tiles n) (b : Fin n) (i j : Fin 64) : EReal := ∑ l : Fin 64, q (ix3 b i l) * k (ix3 b j l)

/-- E = exp S, entry by entry. -/
def weight (q k : Tiles n) (b : Fin n) (i j : Fin 64) : EReal := Ideal.exp (scores q k b i j)

/-- The sum of row i of E. -/
def rowSum (q k : Tiles n) (b : Fin n) (i : Fin 64) : EReal := ∑ j : Fin 64, weight q k b i j

/-- W: each entry of E divided by the sum of its row. -/
def prob (q k : Tiles n) (b : Fin n) (i j : Fin 64) : EReal := Ideal.div (weight q k b i j) (rowSum q k b i)

/-- C = W V on tile `b`. -/
def ctx (q k v : Tiles n) (b : Fin n) (i j : Fin 64) : EReal := ∑ l : Fin 64, prob q k b i l * v (ix3 b l j)

/-- O = C P on tile `b`. -/
def proj (q k v p : Tiles n) (b : Fin n) (i j : Fin 64) : EReal := ∑ l : Fin 64, ctx q k v b i l * p (ix3 b l j)

/-- The result array: O + R. -/
def out (q k v p r : Tiles n) : Tiles n := fun x => proj q k v p (x 0) (x 1) (x 2) + r x

theorem out_ix3 (q k v p r : Tiles n) (b : Fin n) (i j : Fin 64) :
    out q k v p r (ix3 b i j) = proj q k v p b i j + r (ix3 b i j) := rfl

/-- The tiles `e 0, e 1, …` of an array, as an array of their own. -/
def sub {n' : Nat} (e : Fin n → Fin n') (x : Tiles n') : Tiles n := fun y => x (ix3 (e (y 0)) (y 1) (y 2))

/-- The function is local to a tile: on the tiles `e` picks it is the function of the picked tiles. -/
theorem out_sub {n' : Nat} (e : Fin n → Fin n') (q k v p r : Tiles n') (y : (⟨3, ![n, 64, 64]⟩ : Shape).Idx) :
    out (sub e q) (sub e k) (sub e v) (sub e p) (sub e r) y = out q k v p r (ix3 (e (y 0)) (y 1) (y 2)) := rfl

end Cert.Attn

end
-- ==== Proof.RefIsSpec.lean ====
/-
  The reference computes the specification. Its ten host operations are read one at a time at the coordinates
  (tile, row, column): the first `dot_general` contracts the last axes of q and k, so its entry is S = Q Kᵀ;
  the sum over the last axis starts from the literal zero, so it is the row sum of exp S; the two broadcasts put
  that row sum back at every column; the quotient is W; the two further `dot_general`s contract W's (then C's) last
  axis with the middle axis of v (then proj), the plain matrix products; the last operation adds the residual.
-/
import proofs.«122767_j12850542149908_2_alg».proof.Proof.Gen.ReferenceIdeal.Read
import proofs.«122767_j12850542149908_2_alg».proof.Proof.Spec

noncomputable section

namespace Cert.ReferenceIdeal.RefValue

open Cert.ReferenceIdeal Cert.ReferenceIdeal.Gen Cert.ReferenceIdeal.Read Idealize.ShloMosaic Idealize.ShloMosaic.ValueIdx
open Cert.Attn

variable (x0 x1 x2 x3 x4 : (⟨S8192x64x64, .f32⟩ : BufTy).Contents (Elt Ideal))

/-- q kᵀ on a tile. -/
theorem v0_at (b : Fin 8192) (i j : Fin 64) : val_main_v0 (F := Ideal) x0 x1 (ix3 b i j) = scores x0 x1 b i j := by
  rw [val_main_v0_apply]
  refine Finset.sum_congr rfl fun l _ => ?_
  have el : lidx_main_v0 (ix3 b i j) l = ix3 b i l :=
    funext fun a => Fin.ext (by match a with | ⟨0, _⟩ => rfl | ⟨1, _⟩ => rfl | ⟨2, _⟩ => rfl)
  have er : ridx_main_v0 (ix3 b i j) l = ix3 b j l :=
    funext fun a => Fin.ext (by match a with | ⟨0, _⟩ => rfl | ⟨1, _⟩ => rfl | ⟨2, _⟩ => rfl)
  rw [el, er]

/-- Its exponential. -/
theorem v1_at (b : Fin 8192) (i j : Fin 64) : val_main_v1 (F := Ideal) x0 x1 (ix3 b i j) = weight x0 x1 b i j := by
  rw [val_main_v1_apply, v0_at]
  rfl

/-- The sum over the last axis, from the literal zero, is the row sum. -/
theorem v2_at (b : Fin 8192) (i : Fin 64) : val_main_v2 (F := Ideal) x0 x1 (ix2 b i) = rowSum x0 x1 b i := by
  rw [val_main_v2_apply, val_main_cst_apply, Ideal.ofBits_def, Ideal.ofBits_zero_f32, zero_add]
  refine Finset.sum_congr rfl fun l _ => ?_
  have e : idx_main_v2 (ix2 b i) l = ix3 b i l :=
    funext fun a => Fin.ext (by match a with | ⟨0, _⟩ => rfl | ⟨1, _⟩ => rfl | ⟨2, _⟩ => rfl)
  rw [e, v1_at]

/-- The two broadcasts put the row sum at every column of its row. -/
theorem v4_at (b : Fin 8192) (i j : Fin 64) : val_main_v4 (F := Ideal) x0 x1 (ix3 b i j) = rowSum x0 x1 b i := by
  rw [val_main_v4_apply, val_main_v3_apply]
  have e : idx_main_v3 (idx_main_v4 (ix3 b i j)) = ix2 b i :=
    funext fun a => Fin.ext (by match a with | ⟨0, _⟩ => rfl | ⟨1, _⟩ => rfl)
  rw [e, v2_at]

/-- The quotient. -/
theorem v5_at (b : Fin 8192) (i j : Fin 64) : val_main_v5 (F := Ideal) x0 x1 (ix3 b i j) = prob x0 x1 b i j := by
  rw [val_main_v5_apply, v1_at, v4_at]
  rfl

/-- The product with v. -/
theorem v6_at (b : Fin 8192) (i j : Fin 64) : val_main_v6 (F := Ideal) x0 x1 x2 (ix3 b i j) = ctx x0 x1 x2 b i j := by
  rw [val_main_v6_apply]
  refine Finset.sum_congr rfl fun l _ => ?_
  have el : lidx_main_v6 (ix3 b i j) l = ix3 b i l :=
    funext fun a => Fin.ext (by match a with | ⟨0, _⟩ => rfl | ⟨1, _⟩ => rfl | ⟨2, _⟩ => rfl)
  have er : ridx_main_v6 (ix3 b i j) l = ix3 b l j :=
    funext fun a => Fin.ext (by match a with | ⟨0, _⟩ => rfl | ⟨1, _⟩ => rfl | ⟨2, _⟩ => rfl)
  rw [el, er, v5_at]

/-- The product with proj. -/
theorem v7_at (b : Fin 8192) (i j : Fin 64) : val_main_v7 (F := Ideal) x0 x1 x2 x3 (ix3 b i j) = proj x0 x1 x2 x3 b i j := by
  rw [val_main_v7_apply]
  refine Finset.sum_congr rfl fun l _ => ?_
  have el : lidx_main_v7 (ix3 b i j) l = ix3 b i l :=
    funext fun a => Fin.ext (by match a with | ⟨0, _⟩ => rfl | ⟨1, _⟩ => rfl | ⟨2, _⟩ => rfl)
  have er : ridx_main_v7 (ix3 b i j) l = ix3 b l j :=
    funext fun a => Fin.ext (by match a with | ⟨0, _⟩ => rfl | ⟨1, _⟩ => rfl | ⟨2, _⟩ => rfl)
  rw [el, er, v6_at]

/-- The reference's result array is the specification of its five arguments. -/
theorem result_eq : val_main_v8 (F := Ideal) x0 x1 x2 x3 x4 = out x0 x1 x2 x3 x4 := by
  funext x
  obtain ⟨b, i, j, rfl⟩ : ∃ (b : Fin 8192) (i j : Fin 64), x = ix3 b i j := ⟨x 0, x 1, x 2, eq_ix3 x⟩
  rw [val_main_v8_apply, v7_at, out_ix3]
  rfl

end Cert.ReferenceIdeal.RefValue

end
-- ==== Proof.LibRowOps.lean ====
/-
  Row operations read at coordinates, at the extended reals: a sum over the last or the middle axis of a
  rank-3 vector and over the last axis of a rank-2 one, as a sum over that axis's coordinate; broadcasts
  along a unit axis and casts that insert a unit axis, read at the coordinates of the result. Every
  statement is over arbitrary extents and spells indices by their coordinates.
-/
import Idealize.ShloMosaic.PureOps.Ideal.Laws
import Idealize.ShloMosaic.Lib.ValueIdx
import Idealize.ShloMosaic.Lib.Pipeline.Value

noncomputable section

namespace Cert.LibRowOps

open Idealize.ShloMosaic Idealize.ShloMosaic.ValueIdx

/-- A sum over the last axis of an [A, B, C] vector, at (a, b): the sum over k of the entry at (a, b, k). -/
theorem sum_last3 {A B C : ℕ} (src : FVec Ideal ⟨3, ![A, B, C]⟩ .f32)
    (h : (⟨3, ![A, B, C]⟩ : Shape).Reduces [2] ⟨2, ![A, B]⟩) (hφ : FKind.Formats .f32)
    (hacc : (0x00000000#32 : BitVec 32) = 0x00000000#32) (a : Fin A) (b : Fin B) :
    multiReduction .add [2] ⟨2, ![A, B]⟩ src 0x00000000#32 h hφ hacc (ix2 a b) = ∑ k : Fin C, src (ix3 a b k) := by
  refine (Ideal.multiReduction_add_single src 0x00000000#32 h hφ hacc (ix2 a b)).trans ?_
  refine Finset.sum_congr rfl fun k _ => congrArg src ?_
  funext d
  match d with
  | ⟨0, _⟩ => rfl
  | ⟨1, _⟩ => rfl
  | ⟨2, _⟩ => rfl

/-- A sum over the middle axis of an [A, B, C] vector, at (a, c): the sum over k of the entry at (a, k, c). -/
theorem sum_mid3 {A B C : ℕ} (src : FVec Ideal ⟨3, ![A, B, C]⟩ .f32)
    (h : (⟨3, ![A, B, C]⟩ : Shape).Reduces [1] ⟨2, ![A, C]⟩) (hφ : FKind.Formats .f32)
    (hacc : (0x00000000#32 : BitVec 32) = 0x00000000#32) (a : Fin A) (c : Fin C) :
    multiReduction .add [1] ⟨2, ![A, C]⟩ src 0x00000000#32 h hφ hacc (ix2 a c) = ∑ k : Fin B, src (ix3 a k c) := by
  refine (Ideal.multiReduction_add_single src 0x00000000#32 h hφ hacc (ix2 a c)).trans ?_
  refine Finset.sum_congr rfl fun k _ => congrArg src ?_
  funext d
  match d with
  | ⟨0, _⟩ => rfl
  | ⟨1, _⟩ => rfl
  | ⟨2, _⟩ => rfl

/-- A sum over the last axis of an [A, B] vector, at a: the sum over k of the entry at (a, k). -/
theorem sum_last2 {A B : ℕ} (src : FVec Ideal ⟨2, ![A, B]⟩ .f32)
    (h : (⟨2, ![A, B]⟩ : Shape).Reduces [1] ⟨1, ![A]⟩) (hφ : FKind.Formats .f32)
    (hacc : (0x00000000#32 : BitVec 32) = 0x00000000#32) (a : Fin A) :
    multiReduction .add [1] ⟨1, ![A]⟩ src 0x00000000#32 h hφ hacc (ix1 a) = ∑ k : Fin B, src (ix2 a k) := by
  refine (Ideal.multiReduction_add_single src 0x00000000#32 h hφ hacc (ix1 a)).trans ?_
  refine Finset.sum_congr rfl fun k _ => congrArg src ?_
  funext d
  match d with
  | ⟨0, _⟩ => rfl
  | ⟨1, _⟩ => rfl

variable {α : Type}

/-- [A, 1, C] broadcast to [A, B, C], at (a, b, c): the operand at (a, 0, c). -/
theorem bcast_a1c_abc {A B C : ℕ} (x : (⟨3, ![A, 1, C]⟩ : Shape).Idx → α)
    (h : (⟨3, ![A, 1, C]⟩ : Shape).Broadcasts ⟨3, ![A, B, C]⟩) (a : Fin A) (b : Fin B) (c : Fin C) :
    broadcastTo ⟨3, ![A, B, C]⟩ x h (ix3 a b c) = x (ix3 a 0 c) := by
  refine broadcastTo_apply x h _ _ fun d => ?_
  match d with
  | ⟨0, _⟩ =>
    show a.val = if A = 1 then 0 else a.val
    split_ifs with hA
    · have := a.isLt; omega
    · rfl
  | ⟨1, _⟩ => rfl
  | ⟨2, _⟩ =>
    show c.val = if C = 1 then 0 else c.val
    split_ifs with hC
    · have := c.isLt; omega
    · rfl

/-- [A, B, 1] broadcast to [A, B, C], at (a, b, c): the operand at (a, b, 0). -/
theorem bcast_ab1_abc {A B C : ℕ} (x : (⟨3, ![A, B, 1]⟩ : Shape).Idx → α)
    (h : (⟨3, ![A, B, 1]⟩ : Shape).Broadcasts ⟨3, ![A, B, C]⟩) (a : Fin A) (b : Fin B) (c : Fin C) :
    broadcastTo ⟨3, ![A, B, C]⟩ x h (ix3 a b c) = x (ix3 a b 0) := by
  refine broadcastTo_apply x h _ _ fun d => ?_
  match d with
  | ⟨0, _⟩ =>
    show a.val = if A = 1 then 0 else a.val
    split_ifs with hA
    · have := a.isLt; omega
    · rfl
  | ⟨1, _⟩ =>
    show b.val = if B = 1 then 0 else b.val
    split_ifs with hB
    · have := b.isLt; omega
    · rfl
  | ⟨2, _⟩ => rfl

/-- [A, 1] broadcast to [A, B], at (a, b): the operand at (a, 0). -/
theorem bcast_a1_ab {A B : ℕ} (x : (⟨2, ![A, 1]⟩ : Shape).Idx → α)
    (h : (⟨2, ![A, 1]⟩ : Shape).Broadcasts ⟨2, ![A, B]⟩) (a : Fin A) (b : Fin B) :
    broadcastTo ⟨2, ![A, B]⟩ x h (ix2 a b) = x (ix2 a 0) := by
  refine broadcastTo_apply x h _ _ fun d => ?_
  match d with
  | ⟨0, _⟩ =>
    show a.val = if A = 1 then 0 else a.val
    split_ifs with hA
    · have := a.isLt; omega
    · rfl
  | ⟨1, _⟩ => rfl

/-- [1, B] broadcast to [A, B], at (a, b): the operand at (0, b). -/
theorem bcast_1b_ab {A B : ℕ} (x : (⟨2, ![1, B]⟩ : Shape).Idx → α)
    (h : (⟨2, ![1, B]⟩ : Shape).Broadcasts ⟨2, ![A, B]⟩) (a : Fin A) (b : Fin B) :
    broadcastTo ⟨2, ![A, B]⟩ x h (ix2 a b) = x (ix2 0 b) := by
  refine broadcastTo_apply x h _ _ fun d => ?_
  match d with
  | ⟨0, _⟩ => rfl
  | ⟨1, _⟩ =>
    show b.val = if B = 1 then 0 else b.val
    split_ifs with hB
    · have := b.isLt; omega
    · rfl

/-- [A, C] cast to [A, 1, C], at (a, 0, c): the operand at (a, c). -/
theorem cast_ac_a1c {A C : ℕ} (x : (⟨2, ![A, C]⟩ : Shape).Idx → α)
    (h : (⟨2, ![A, C]⟩ : Shape).ShapeCasts ⟨3, ![A, 1, C]⟩) (a : Fin A) (z : Fin 1) (c : Fin C) :
    shapeCast ⟨3, ![A, 1, C]⟩ x h (ix3 a z c) = x (ix2 a c) := by
  refine shapeCast_apply x h _ _ ?_
  rw [Shape.rowMajor_val_two, Shape.rowMajor_val_three]
  show a.val * C + c.val = (a.val * 1 + z.val) * C + c.val
  have := z.isLt
  have hz : z.val = 0 := by omega
  rw [hz]; ring

/-- [A, B] cast to [A, B, 1], at (a, b, 0): the operand at (a, b). -/
theorem cast_ab_ab1 {A B : ℕ} (x : (⟨2, ![A, B]⟩ : Shape).Idx → α)
    (h : (⟨2, ![A, B]⟩ : Shape).ShapeCasts ⟨3, ![A, B, 1]⟩) (a : Fin A) (b : Fin B) (z : Fin 1) :
    shapeCast ⟨3, ![A, B, 1]⟩ x h (ix3 a b z) = x (ix2 a b) := by
  refine shapeCast_apply x h _ _ ?_
  rw [Shape.rowMajor_val_two, Shape.rowMajor_val_three]
  show a.val * B + b.val = (a.val * B + b.val) * 1 + z.val
  have := z.isLt
  omega

/-- [A] cast to [A, 1], at (a, 0): the operand at a. -/
theorem cast_a_a1 {A : ℕ} (x : (⟨1, ![A]⟩ : Shape).Idx → α)
    (h : (⟨1, ![A]⟩ : Shape).ShapeCasts ⟨2, ![A, 1]⟩) (a : Fin A) (z : Fin 1) :
    shapeCast ⟨2, ![A, 1]⟩ x h (ix2 a z) = x (ix1 a) := by
  refine shapeCast_apply x h _ _ ?_
  rw [Shape.rowMajor_val_one, Shape.rowMajor_val_two]
  show a.val = a.val * 1 + z.val
  have := z.isLt
  omega

end Cert.LibRowOps

end
-- ==== Proof.PayloadIsSpec.lean ====
/-
  The kernel's body computes the specification on its block of 64 tiles. The body's one stored value is a pure
  term of its five loaded blocks; read at the coordinates (tile, row, column) of the block:
  the first matrix product contracts the last axes of its operands into a zero accumulator, so its entry is
  S = Q Kᵀ; the sum over the last axis of exp S, cast to a trailing unit axis and broadcast back, is the row sum
  at every column; the quotient is W; the two further products contract the last axis of W (then C) with the
  middle axis of v (then proj) into zero accumulators; the last operation adds the residual block. The changes
  of float format on the way into each product are the identity on extended reals.
-/
import proofs.«122767_j12850542149908_2_alg».proof.Proof.Gen.KernelIdeal.Skeleton
import proofs.«122767_j12850542149908_2_alg».proof.Proof.Spec
import proofs.«122767_j12850542149908_2_alg».proof.Proof.LibRowOps
import Idealize.ShloMosaic.PureOps.Ideal.Laws
import Idealize.ShloMosaic.Lib.ValueIdx
import Idealize.ShloMosaic.Lib.Pipeline.Value

noncomputable section

namespace Cert.KernelIdeal.Hand

open Cert.KernelIdeal Cert.KernelIdeal.Gen Idealize.ShloMosaic Idealize.ShloMosaic.ValueIdx
open Cert.Attn

/-! ## The two matrix products at coordinates -/

/-! The operand coordinates of each product: the tile axis is shared, each operand keeps one axis of its own, and the
    remaining axis of each is the summed one. -/

theorem lastlast_lhs_0 (x : S64x64x64.Idx) (c : dot_S64x64x64_S64x64x64_S64x64x64_2_2_1_1_0_0.contr.Idx) :
    (dot_S64x64x64_S64x64x64_S64x64x64_2_2_1_1_0_0.lhsIdx x c 0).val = (x 0).val := by
  unfold DotDims.lhsIdx
  rw [dif_pos (show (0 : Fin S64x64x64.rank) ∈ dot_S64x64x64_S64x64x64_S64x64x64_2_2_1_1_0_0.lhsBatch by decide)]
  rfl

theorem lastlast_lhs_1 (x : S64x64x64.Idx) (c : dot_S64x64x64_S64x64x64_S64x64x64_2_2_1_1_0_0.contr.Idx) :
    (dot_S64x64x64_S64x64x64_S64x64x64_2_2_1_1_0_0.lhsIdx x c 1).val = (x 1).val := by
  unfold DotDims.lhsIdx
  rw [dif_neg (show ¬(1 : Fin S64x64x64.rank) ∈ dot_S64x64x64_S64x64x64_S64x64x64_2_2_1_1_0_0.lhsBatch by decide), dif_pos (show (1 : Fin S64x64x64.rank) ∈ dot_S64x64x64_S64x64x64_S64x64x64_2_2_1_1_0_0.lhsNonContracting by decide)]
  rfl

theorem lastlast_lhs_2 (x : S64x64x64.Idx) (c : dot_S64x64x64_S64x64x64_S64x64x64_2_2_1_1_0_0.contr.Idx) :
    (dot_S64x64x64_S64x64x64_S64x64x64_2_2_1_1_0_0.lhsIdx x c 2).val = (c ⟨0, by decide⟩).val :=
  dot_S64x64x64_S64x64x64_S64x64x64_2_2_1_1_0_0.lhsIdx_val_of_single rfl x c

theorem lastlast_rhs_0 (x : S64x64x64.Idx) (c : dot_S64x64x64_S64x64x64_S64x64x64_2_2_1_1_0_0.contr.Idx) :
    (dot_S64x64x64_S64x64x64_S64x64x64_2_2_1_1_0_0.rhsIdx x c 0).val = (x 0).val := by
  unfold DotDims.rhsIdx
  rw [dif_pos (show (0 : Fin S64x64x64.rank) ∈ dot_S64x64x64_S64x64x64_S64x64x64_2_2_1_1_0_0.rhsBatch by decide)]
  rfl

theorem lastlast_rhs_1 (x : S64x64x64.Idx) (c : dot_S64x64x64_S64x64x64_S64x64x64_2_2_1_1_0_0.contr.Idx) :
    (dot_S64x64x64_S64x64x64_S64x64x64_2_2_1_1_0_0.rhsIdx x c 1).val = (x 2).val := by
  unfold DotDims.rhsIdx
  rw [dif_neg (show ¬(1 : Fin S64x64x64.rank) ∈ dot_S64x64x64_S64x64x64_S64x64x64_2_2_1_1_0_0.rhsBatch by decide), dif_pos (show (1 : Fin S64x64x64.rank) ∈ dot_S64x64x64_S64x64x64_S64x64x64_2_2_1_1_0_0.rhsNonContracting by decide)]
  rfl

theorem lastlast_rhs_2 (x : S64x64x64.Idx) (c : dot_S64x64x64_S64x64x64_S64x64x64_2_2_1_1_0_0.contr.Idx) :
    (dot_S64x64x64_S64x64x64_S64x64x64_2_2_1_1_0_0.rhsIdx x c 2).val = (c ⟨0, by decide⟩).val :=
  dot_S64x64x64_S64x64x64_S64x64x64_2_2_1_1_0_0.rhsIdx_val_of_single rfl x c

theorem lastmid_lhs_0 (x : S64x64x64.Idx) (c : dot_S64x64x64_S64x64x64_S64x64x64_2_1_1_2_0_0.contr.Idx) :
    (dot_S64x64x64_S64x64x64_S64x64x64_2_1_1_2_0_0.lhsIdx x c 0).val = (x 0).val := by
  unfold DotDims.lhsIdx
  rw [dif_pos (show (0 : Fin S64x64x64.rank) ∈ dot_S64x64x64_S64x64x64_S64x64x64_2_1_1_2_0_0.lhsBatch by decide)]
  rfl

theorem lastmid_lhs_1 (x : S64x64x64.Idx) (c : dot_S64x64x64_S64x64x64_S64x64x64_2_1_1_2_0_0.contr.Idx) :
    (dot_S64x64x64_S64x64x64_S64x64x64_2_1_1_2_0_0.lhsIdx x c 1).val = (x 1).val := by
  unfold DotDims.lhsIdx
  rw [dif_neg (show ¬(1 : Fin S64x64x64.rank) ∈ dot_S64x64x64_S64x64x64_S64x64x64_2_1_1_2_0_0.lhsBatch by decide), dif_pos (show (1 : Fin S64x64x64.rank) ∈ dot_S64x64x64_S64x64x64_S64x64x64_2_1_1_2_0_0.lhsNonContracting by decide)]
  rfl

theorem lastmid_lhs_2 (x : S64x64x64.Idx) (c : dot_S64x64x64_S64x64x64_S64x64x64_2_1_1_2_0_0.contr.Idx) :
    (dot_S64x64x64_S64x64x64_S64x64x64_2_1_1_2_0_0.lhsIdx x c 2).val = (c ⟨0, by decide⟩).val :=
  dot_S64x64x64_S64x64x64_S64x64x64_2_1_1_2_0_0.lhsIdx_val_of_single rfl x c

theorem lastmid_rhs_0 (x : S64x64x64.Idx) (c : dot_S64x64x64_S64x64x64_S64x64x64_2_1_1_2_0_0.contr.Idx) :
    (dot_S64x64x64_S64x64x64_S64x64x64_2_1_1_2_0_0.rhsIdx x c 0).val = (x 0).val := by
  unfold DotDims.rhsIdx
  rw [dif_pos (show (0 : Fin S64x64x64.rank) ∈ dot_S64x64x64_S64x64x64_S64x64x64_2_1_1_2_0_0.rhsBatch by decide)]
  rfl

theorem lastmid_rhs_1 (x : S64x64x64.Idx) (c : dot_S64x64x64_S64x64x64_S64x64x64_2_1_1_2_0_0.contr.Idx) :
    (dot_S64x64x64_S64x64x64_S64x64x64_2_1_1_2_0_0.rhsIdx x c 1).val = (c ⟨0, by decide⟩).val :=
  dot_S64x64x64_S64x64x64_S64x64x64_2_1_1_2_0_0.rhsIdx_val_of_single rfl x c

theorem lastmid_rhs_2 (x : S64x64x64.Idx) (c : dot_S64x64x64_S64x64x64_S64x64x64_2_1_1_2_0_0.contr.Idx) :
    (dot_S64x64x64_S64x64x64_S64x64x64_2_1_1_2_0_0.rhsIdx x c 2).val = (x 2).val := by
  unfold DotDims.rhsIdx
  rw [dif_neg (show ¬(2 : Fin S64x64x64.rank) ∈ dot_S64x64x64_S64x64x64_S64x64x64_2_1_1_2_0_0.rhsBatch by decide), dif_pos (show (2 : Fin S64x64x64.rank) ∈ dot_S64x64x64_S64x64x64_S64x64x64_2_1_1_2_0_0.rhsNonContracting by decide)]
  rfl

/-- A product contracting the LAST axes of both operands (A Bᵀ on each tile), into the zero accumulator. -/
theorem matmul_last_last (A B : FVec Ideal S64x64x64 .bf16) (b i j : Fin 64) :
    matmul dot_S64x64x64_S64x64x64_S64x64x64_2_2_1_1_0_0 none A B (constant (F := Ideal) S64x64x64 .f32 0x00000000#32) (ix3 b i j)
      = ∑ l : Fin 64, A (ix3 b i l) * B (ix3 b j l) := by
  refine (Ideal.matmul_constant_zero_apply dot_S64x64x64_S64x64x64_S64x64x64_2_2_1_1_0_0 none A B (ix3 b i j)).trans ?_
  rw [← Equiv.sum_comp (contrEquiv1 dot_S64x64x64_S64x64x64_S64x64x64_2_2_1_1_0_0 64 rfl rfl).symm]
  refine Finset.sum_congr rfl fun l _ => ?_
  have hl := contrEquiv1_symm_val dot_S64x64x64_S64x64x64_S64x64x64_2_2_1_1_0_0 64 rfl rfl l
  have el : dot_S64x64x64_S64x64x64_S64x64x64_2_2_1_1_0_0.lhsIdx (ix3 b i j) ((contrEquiv1 dot_S64x64x64_S64x64x64_S64x64x64_2_2_1_1_0_0 64 rfl rfl).symm l) = ix3 b i l := funext fun a => Fin.ext (by
    match a with
    | ⟨0, _⟩ => exact lastlast_lhs_0 _ _
    | ⟨1, _⟩ => exact lastlast_lhs_1 _ _
    | ⟨2, _⟩ => exact (lastlast_lhs_2 _ _).trans hl)
  have er : dot_S64x64x64_S64x64x64_S64x64x64_2_2_1_1_0_0.rhsIdx (ix3 b i j) ((contrEquiv1 dot_S64x64x64_S64x64x64_S64x64x64_2_2_1_1_0_0 64 rfl rfl).symm l) = ix3 b j l := funext fun a => Fin.ext (by
    match a with
    | ⟨0, _⟩ => exact lastlast_rhs_0 _ _
    | ⟨1, _⟩ => exact lastlast_rhs_1 _ _
    | ⟨2, _⟩ => exact (lastlast_rhs_2 _ _).trans hl)
  rw [el, er]

/-- A product contracting the LAST axis of the left operand with the MIDDLE axis of the right one (A B on each
    tile), into the zero accumulator. -/
theorem matmul_last_mid (A B : FVec Ideal S64x64x64 .bf16) (b i j : Fin 64) :
    matmul dot_S64x64x64_S64x64x64_S64x64x64_2_1_1_2_0_0 none A B (constant (F := Ideal) S64x64x64 .f32 0x00000000#32) (ix3 b i j)
      = ∑ l : Fin 64, A (ix3 b i l) * B (ix3 b l j) := by
  refine (Ideal.matmul_constant_zero_apply dot_S64x64x64_S64x64x64_S64x64x64_2_1_1_2_0_0 none A B (ix3 b i j)).trans ?_
  rw [← Equiv.sum_comp (contrEquiv1 dot_S64x64x64_S64x64x64_S64x64x64_2_1_1_2_0_0 64 rfl rfl).symm]
  refine Finset.sum_congr rfl fun l _ => ?_
  have hl := contrEquiv1_symm_val dot_S64x64x64_S64x64x64_S64x64x64_2_1_1_2_0_0 64 rfl rfl l
  have el : dot_S64x64x64_S64x64x64_S64x64x64_2_1_1_2_0_0.lhsIdx (ix3 b i j) ((contrEquiv1 dot_S64x64x64_S64x64x64_S64x64x64_2_1_1_2_0_0 64 rfl rfl).symm l) = ix3 b i l := funext fun a => Fin.ext (by
    match a with
    | ⟨0, _⟩ => exact lastmid_lhs_0 _ _
    | ⟨1, _⟩ => exact lastmid_lhs_1 _ _
    | ⟨2, _⟩ => exact (lastmid_lhs_2 _ _).trans hl)
  have er : dot_S64x64x64_S64x64x64_S64x64x64_2_1_1_2_0_0.rhsIdx (ix3 b i j) ((contrEquiv1 dot_S64x64x64_S64x64x64_S64x64x64_2_1_1_2_0_0 64 rfl rfl).symm l) = ix3 b l j := funext fun a => Fin.ext (by
    match a with
    | ⟨0, _⟩ => exact lastmid_rhs_0 _ _
    | ⟨1, _⟩ => exact (lastmid_rhs_1 _ _).trans hl
    | ⟨2, _⟩ => exact lastmid_rhs_2 _ _)
  rw [el, er]

/-! ## The body's stages at coordinates -/

variable (q k v p r : Vec Ideal S64x64x64 .f32)

/-- exp (Q Kᵀ), the value the body sums and divides. -/
def expScores : FVec Ideal S64x64x64 .f32 :=
  exp (matmul dot_S64x64x64_S64x64x64_S64x64x64_2_2_1_1_0_0 none (truncf .bf16 q bitsLt_bf16_f32) (truncf .bf16 k bitsLt_bf16_f32)
    (constant (F := Ideal) S64x64x64 .f32 0x00000000#32))

theorem expScores_at (b i j : Fin 64) : expScores q k (ix3 b i j) = weight q k b i j := by
  unfold expScores
  exact congrArg Ideal.exp (matmul_last_last _ _ b i j)

/-- The row sums, put back at every column. -/
def denom : FVec Ideal S64x64x64 .f32 :=
  broadcastTo S64x64x64 (shapeCast S64x64x1 (multiReduction .add [2] S64x64 (expScores q k) 0x00000000#32 reduces_S64x64x64_S64x64 (.inl rfl) rfl)
    shapeCasts_S64x64_S64x64x1) broadcasts_S64x64x1_S64x64x64

theorem denom_at (b i j : Fin 64) : denom q k (ix3 b i j) = rowSum q k b i := by
  unfold denom
  refine (Cert.LibRowOps.bcast_ab1_abc _ broadcasts_S64x64x1_S64x64x64 b i j).trans ?_
  refine (Cert.LibRowOps.cast_ab_ab1 _ shapeCasts_S64x64_S64x64x1 b i 0).trans ?_
  refine (Cert.LibRowOps.sum_last3 (expScores q k) reduces_S64x64x64_S64x64 (.inl rfl) rfl b i).trans ?_
  exact Finset.sum_congr rfl fun l _ => expScores_at q k b i l

/-- W. -/
def quot : FVec Ideal S64x64x64 .f32 := divf (expScores q k) (denom q k)

theorem quot_at (b i j : Fin 64) : quot q k (ix3 b i j) = prob q k b i j := by
  unfold quot
  rw [divf_apply, expScores_at, denom_at]
  rfl

/-- C = W V. -/
def ctxBlock : FVec Ideal S64x64x64 .f32 :=
  matmul dot_S64x64x64_S64x64x64_S64x64x64_2_1_1_2_0_0 none (truncf .bf16 (quot q k) bitsLt_bf16_f32) (truncf .bf16 v bitsLt_bf16_f32)
    (constant (F := Ideal) S64x64x64 .f32 0x00000000#32)

theorem ctxBlock_at (b i j : Fin 64) : ctxBlock q k v (ix3 b i j) = ctx q k v b i j := by
  unfold ctxBlock
  rw [matmul_last_mid]
  exact Finset.sum_congr rfl fun l _ => by rw [truncf_apply, truncf_apply, quot_at]

/-- O = C P. -/
def projBlock : FVec Ideal S64x64x64 .f32 :=
  matmul dot_S64x64x64_S64x64x64_S64x64x64_2_1_1_2_0_0 none (truncf .bf16 (ctxBlock q k v) bitsLt_bf16_f32) (truncf .bf16 p bitsLt_bf16_f32)
    (constant (F := Ideal) S64x64x64 .f32 0x00000000#32)

theorem projBlock_at (b i j : Fin 64) : projBlock q k v p (ix3 b i j) = proj q k v p b i j := by
  unfold projBlock
  rw [matmul_last_mid]
  exact Finset.sum_congr rfl fun l _ => by rw [truncf_apply, truncf_apply, ctxBlock_at]

/-- The body's stored value is its stages composed. -/
theorem pay_eq_stages : k0_pay1 (F := Ideal) q k v p r = addf (projBlock q k v p) r := rfl

/-- The body's stored value is the specification of its five loaded blocks. -/
theorem pay_eq : k0_pay1 (F := Ideal) q k v p r = out q k v p r := by
  rw [pay_eq_stages]
  funext x
  obtain ⟨b, i, j, rfl⟩ : ∃ (b i j : Fin 64), x = ix3 b i j := ⟨x 0, x 1, x 2, eq_ix3 x⟩
  rw [addf_apply, projBlock_at, out_ix3]

end Cert.KernelIdeal.Hand

end
-- ==== Proof.KernelValue.lean ====
/-
  The kernel's result array is the specification of its five argument arrays.

  Grid point t (of 128) works on tiles 64 t … 64 t + 63: each of the six windows' blocks at t is those 64 whole
  tiles of its array. So the five input blocks are the arguments restricted to those tiles, the body's stored value
  is the specification of the restricted arguments, and — the specification being local to a tile — that is the
  specification of the whole arguments, restricted to those tiles: what point t writes back is block t of one
  whole-array function. The 128 blocks cover the array (tile b lies in the block of point b / 64), so the array
  ends holding that function.
-/
import proofs.«122767_j12850542149908_2_alg».proof.Proof.Gen.KernelIdeal.Value
import proofs.«122767_j12850542149908_2_alg».proof.Proof.PayloadIsSpec
import Idealize.ShloMosaic.Lib.Pipeline.Value

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.Value Idealize.ShloMosaic.ValueIdx
open Cert.Attn

variable (m : (ℓ : Loc nD τ sig) → Buf (Elt Ideal) ℓ) (ρ : Dev nD → PrngReg)

theorem hz : (![0, 0, 0] : Fin 3 → Nat) = fun _ => 0 := funext fun a => by fin_cases a <;> rfl

/-- Every window's block index at grid point t is (t, 0, 0): decided over the 128 points. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0) :=
  (by decide +kernel : ∀ t : Fin grid0.N, _)

/-- The tiles grid point t works on: 64 t + b for b < 64. -/
def tileOf (t : Fin cfg0.N) : Fin 64 → Fin 8192 := fun b =>
  ⟨t.val * 64 + b.val, by have := t.isLt; have hN : cfg0.N = 128 := N_0; have := b.isLt; omega⟩

/-! ## Each input block is its argument restricted to the point's tiles -/

theorem iblk0_eq (c : Dev nD) (t : Fin cfg0.N) :
    (iblk m c 0 t : Vec Ideal S64x64x64 .f32) = sub (tileOf t) (V m c main_arg0 : S8192x64x64.Idx → EReal) := by
  have e0 : win0_0.index t (0 : Fin 3) = t.val := (idx_facts t).1.1
  have e1 : win0_0.index t (1 : Fin 3) = 0 := (idx_facts t).1.2.1
  have e2 : win0_0.index t (2 : Fin 3) = 0 := (idx_facts t).1.2.2
  funext y
  unfold iblk
  rw [View.read_apply]
  show V m c main_arg0 (((cfg0.win 0).blk t).view.emb y) = V m c main_arg0 (ix3 (tileOf t (y 0)) (y 1) (y 2))
  refine congrArg (V m c main_arg0) (funext fun a => Fin.ext ?_)
  match a with
  | ⟨0, _⟩ => show win0_0.index t (0 : Fin 3) * 64 + 1 * (y 0).val = t.val * 64 + (y 0).val; rw [e0]; omega
  | ⟨1, _⟩ => show win0_0.index t (1 : Fin 3) * 64 + 1 * (y 1).val = (y 1).val; rw [e1]; omega
  | ⟨2, _⟩ => show win0_0.index t (2 : Fin 3) * 64 + 1 * (y 2).val = (y 2).val; rw [e2]; omega

theorem iblk1_eq (c : Dev nD) (t : Fin cfg0.N) :
    (iblk m c 1 t : Vec Ideal S64x64x64 .f32) = sub (tileOf t) (V m c main_arg1 : S8192x64x64.Idx → EReal) := by
  have e0 : win0_1.index t (0 : Fin 3) = t.val := (idx_facts t).2.1.1
  have e1 : win0_1.index t (1 : Fin 3) = 0 := (idx_facts t).2.1.2.1
  have e2 : win0_1.index t (2 : Fin 3) = 0 := (idx_facts t).2.1.2.2
  funext y
  unfold iblk
  rw [View.read_apply]
  show V m c main_arg1 (((cfg0.win 1).blk t).view.emb y) = V m c main_arg1 (ix3 (tileOf t (y 0)) (y 1) (y 2))
  refine congrArg (V m c main_arg1) (funext fun a => Fin.ext ?_)
  match a with
  | ⟨0, _⟩ => show win0_1.index t (0 : Fin 3) * 64 + 1 * (y 0).val = t.val * 64 + (y 0).val; rw [e0]; omega
  | ⟨1, _⟩ => show win0_1.index t (1 : Fin 3) * 64 + 1 * (y 1).val = (y 1).val; rw [e1]; omega
  | ⟨2, _⟩ => show win0_1.index t (2 : Fin 3) * 64 + 1 * (y 2).val = (y 2).val; rw [e2]; omega

theorem iblk2_eq (c : Dev nD) (t : Fin cfg0.N) :
    (iblk m c 2 t : Vec Ideal S64x64x64 .f32) = sub (tileOf t) (V m c main_arg2 : S8192x64x64.Idx → EReal) := by
  have e0 : win0_2.index t (0 : Fin 3) = t.val := (idx_facts t).2.2.1.1
  have e1 : win0_2.index t (1 : Fin 3) = 0 := (idx_facts t).2.2.1.2.1
  have e2 : win0_2.index t (2 : Fin 3) = 0 := (idx_facts t).2.2.1.2.2
  funext y
  unfold iblk
  rw [View.read_apply]
  show V m c main_arg2 (((cfg0.win 2).blk t).view.emb y) = V m c main_arg2 (ix3 (tileOf t (y 0)) (y 1) (y 2))
  refine congrArg (V m c main_arg2) (funext fun a => Fin.ext ?_)
  match a with
  | ⟨0, _⟩ => show win0_2.index t (0 : Fin 3) * 64 + 1 * (y 0).val = t.val * 64 + (y 0).val; rw [e0]; omega
  | ⟨1, _⟩ => show win0_2.index t (1 : Fin 3) * 64 + 1 * (y 1).val = (y 1).val; rw [e1]; omega
  | ⟨2, _⟩ => show win0_2.index t (2 : Fin 3) * 64 + 1 * (y 2).val = (y 2).val; rw [e2]; omega

theorem iblk3_eq (c : Dev nD) (t : Fin cfg0.N) :
    (iblk m c 3 t : Vec Ideal S64x64x64 .f32) = sub (tileOf t) (V m c main_arg3 : S8192x64x64.Idx → EReal) := by
  have e0 : win0_3.index t (0 : Fin 3) = t.val := (idx_facts t).2.2.2.1.1
  have e1 : win0_3.index t (1 : Fin 3) = 0 := (idx_facts t).2.2.2.1.2.1
  have e2 : win0_3.index t (2 : Fin 3) = 0 := (idx_facts t).2.2.2.1.2.2
  funext y
  unfold iblk
  rw [View.read_apply]
  show V m c main_arg3 (((cfg0.win 3).blk t).view.emb y) = V m c main_arg3 (ix3 (tileOf t (y 0)) (y 1) (y 2))
  refine congrArg (V m c main_arg3) (funext fun a => Fin.ext ?_)
  match a with
  | ⟨0, _⟩ => show win0_3.index t (0 : Fin 3) * 64 + 1 * (y 0).val = t.val * 64 + (y 0).val; rw [e0]; omega
  | ⟨1, _⟩ => show win0_3.index t (1 : Fin 3) * 64 + 1 * (y 1).val = (y 1).val; rw [e1]; omega
  | ⟨2, _⟩ => show win0_3.index t (2 : Fin 3) * 64 + 1 * (y 2).val = (y 2).val; rw [e2]; omega

theorem iblk4_eq (c : Dev nD) (t : Fin cfg0.N) :
    (iblk m c 4 t : Vec Ideal S64x64x64 .f32) = sub (tileOf t) (V m c main_arg4 : S8192x64x64.Idx → EReal) := by
  have e0 : win0_4.index t (0 : Fin 3) = t.val := (idx_facts t).2.2.2.2.1.1
  have e1 : win0_4.index t (1 : Fin 3) = 0 := (idx_facts t).2.2.2.2.1.2.1
  have e2 : win0_4.index t (2 : Fin 3) = 0 := (idx_facts t).2.2.2.2.1.2.2
  funext y
  unfold iblk
  rw [View.read_apply]
  show V m c main_arg4 (((cfg0.win 4).blk t).view.emb y) = V m c main_arg4 (ix3 (tileOf t (y 0)) (y 1) (y 2))
  refine congrArg (V m c main_arg4) (funext fun a => Fin.ext ?_)
  match a with
  | ⟨0, _⟩ => show win0_4.index t (0 : Fin 3) * 64 + 1 * (y 0).val = t.val * 64 + (y 0).val; rw [e0]; omega
  | ⟨1, _⟩ => show win0_4.index t (1 : Fin 3) * 64 + 1 * (y 1).val = (y 1).val; rw [e1]; omega
  | ⟨2, _⟩ => show win0_4.index t (2 : Fin 3) * 64 + 1 * (y 2).val = (y 2).val; rw [e2]; omega

/-- The array coordinates of an element of the output's block at point t. -/
theorem emb5_eq (t : Fin cfg0.N) (y : S64x64x64.Idx) :
    ((cfg0.win 5).blk t).view.emb y = ix3 (tileOf t (y 0)) (y 1) (y 2) := by
  have e0 : win0_5.index t (0 : Fin 3) = t.val := (idx_facts t).2.2.2.2.2.1
  have e1 : win0_5.index t (1 : Fin 3) = 0 := (idx_facts t).2.2.2.2.2.2.1
  have e2 : win0_5.index t (2 : Fin 3) = 0 := (idx_facts t).2.2.2.2.2.2.2
  refine funext fun a => Fin.ext ?_
  match a with
  | ⟨0, _⟩ => show win0_5.index t (0 : Fin 3) * 64 + 1 * (y 0).val = t.val * 64 + (y 0).val; rw [e0]; omega
  | ⟨1, _⟩ => show win0_5.index t (1 : Fin 3) * 64 + 1 * (y 1).val = (y 1).val; rw [e1]; omega
  | ⟨2, _⟩ => show win0_5.index t (2 : Fin 3) * 64 + 1 * (y 2).val = (y 2).val; rw [e2]; omega

/-- The whole-array function of the arguments as the region finds them. -/
abbrev result (c : Dev nD) : S8192x64x64.Idx → EReal :=
  out (V m c main_arg0 : S8192x64x64.Idx → EReal) (V m c main_arg1 : S8192x64x64.Idx → EReal)
    (V m c main_arg2 : S8192x64x64.Idx → EReal) (V m c main_arg3 : S8192x64x64.Idx → EReal)
    (V m c main_arg4 : S8192x64x64.Idx → EReal)

/-- What point t writes back is block t of the whole-array function. -/
theorem flushed_eq (c : Dev nD) (t : Fin cfg0.N) :
    (dats m 0 c).flushed 5 t = ((cfg0.win 5).blk t).view.read (Elt Ideal) (result m c) := by
  rw [Value.flushed5]
  unfold out0_5
  rw [View.canon_unit_zero hz]
  simp only [View.ld_unit_zero (S := S64x64x64) hz]
  rw [pay_eq (iblk m c 0 t) (iblk m c 1 t) (iblk m c 2 t) (iblk m c 3 t) (iblk m c 4 t),
    iblk0_eq m c t, iblk1_eq m c t, iblk2_eq m c t, iblk3_eq m c t, iblk4_eq m c t]
  funext y
  show out _ _ _ _ _ y = result m c (((cfg0.win 5).blk t).view.emb y)
  rw [out_sub, emb5_eq]
  rfl

/-- An index of the array is in point t's block iff each coordinate is in the block's range on its axis. -/
theorem mem_blk (t : Fin cfg0.N) (i : S8192x64x64.Idx) :
    i ∈ ((cfg0.win 5).blk t).view.set ↔ ∀ a : Fin 3, win0_5.index t a * S64x64x64.size a ≤ (i a).val ∧ (i a).val < win0_5.index t a * S64x64x64.size a + S64x64x64.size a := by
  show i ∈ ((View.whole main_v0).slice (win0_5.rect t)).set ↔ _
  rw [View.set_slice_whole, Rect.mem_set_unit]
  exact Iff.rfl

/-- Every index of the array lies in the block of the point its tile number names. -/
theorem cover (i : S8192x64x64.Idx) : ∃ t : Fin cfg0.N, (cfg0.win 5).flush t = true ∧ i ∈ ((cfg0.win 5).blk t).view.set := by
  have hN : cfg0.N = 128 := N_0
  have h0 : (i 0).val < 8192 := (i 0).isLt
  have h1 : (i 1).val < 64 := (i 1).isLt
  have h2 : (i 2).val < 64 := (i 2).isLt
  let t : Fin cfg0.N := ⟨(i 0).val / 64, by omega⟩
  have ht : t.val = (i 0).val / 64 := rfl
  have e0 : win0_5.index t (0 : Fin 3) = t.val := (idx_facts t).2.2.2.2.2.1
  have e1 : win0_5.index t (1 : Fin 3) = 0 := (idx_facts t).2.2.2.2.2.2.1
  have e2 : win0_5.index t (2 : Fin 3) = 0 := (idx_facts t).2.2.2.2.2.2.2
  refine ⟨t, flush0_5 t, ?_⟩
  rw [mem_blk]
  intro a
  match a with
  | ⟨0, _⟩ => show win0_5.index t (0 : Fin 3) * 64 ≤ (i 0).val ∧ (i 0).val < win0_5.index t (0 : Fin 3) * 64 + 64; rw [e0, ht]; omega
  | ⟨1, _⟩ => show win0_5.index t (1 : Fin 3) * 64 ≤ (i 1).val ∧ (i 1).val < win0_5.index t (1 : Fin 3) * 64 + 64; rw [e1]; omega
  | ⟨2, _⟩ => show win0_5.index t (2 : Fin 3) * 64 ≤ (i 2).val ∧ (i 2).val < win0_5.index t (2 : Fin 3) * 64 + 64; rw [e2]; omega

/-- So the result array ends holding the whole-array function. -/
theorem final (c : Dev nD) : (dats m 0 c).arrAt 5 cfg0.N = result m c :=
  (dats m 0 c).arrAt_eq_of_cover 5 (result m c) (fun t _ => flushed_eq m c t) cover

/-- The run, read: the result array at the specification of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Hand

end
-- ==== Proof.lean ====
/-
  Both programs compute, on each of 8192 independent tiles of 64 × 64 numbers, (W V) P + R with W the rows of
  exp (Q Kᵀ) divided by their sums. At the extended reals the kernel's changes of float format are the identity,
  its matrix products into zero accumulators are the reference's plain contractions, its sum over the last axis
  is the reference's sum from the literal zero, and both divide exactly: the two programs spell one function
  (Proof/Spec.lean), the reference operation by operation (Proof/RefIsSpec.lean), the kernel's body on each block
  of 64 tiles (Proof/PayloadIsSpec.lean) and hence, the function being local to a tile and the 128 blocks covering
  the array, on the whole array (Proof/KernelValue.lean). No law of arithmetic joins the two sides, so the
  finiteness of the inputs is never used. The three frames are the generated runs; nothing was rewritten on the
  way to the idealized kernel, so that claim is `True`.
-/
import proofs.«122767_j12850542149908_2_alg».proof.Defs
import proofs.«122767_j12850542149908_2_alg».proof.Proof.Gen.Kernel
import proofs.«122767_j12850542149908_2_alg».proof.Proof.Gen.Kernel.Skeleton
import proofs.«122767_j12850542149908_2_alg».proof.Proof.Gen.Kernel.Launch
import proofs.«122767_j12850542149908_2_alg».proof.Proof.Gen.Kernel.Points
import proofs.«122767_j12850542149908_2_alg».proof.Proof.Gen.Kernel.Frame
import proofs.«122767_j12850542149908_2_alg».proof.Proof.Gen.KernelIdeal
import proofs.«122767_j12850542149908_2_alg».proof.Proof.Gen.KernelIdeal.Skeleton
import proofs.«122767_j12850542149908_2_alg».proof.Proof.Gen.KernelIdeal.Launch
import proofs.«122767_j12850542149908_2_alg».proof.Proof.Gen.KernelIdeal.Points
import proofs.«122767_j12850542149908_2_alg».proof.Proof.Gen.KernelIdeal.Frame
import proofs.«122767_j12850542149908_2_alg».proof.Proof.Gen.ReferenceIdeal
import proofs.«122767_j12850542149908_2_alg».proof.Proof.Gen.KernelIdeal.Value
import proofs.«122767_j12850542149908_2_alg».proof.Proof.Gen.ReferenceIdeal.Run
import proofs.«122767_j12850542149908_2_alg».proof.Proof.Gen.ReferenceIdeal.Read
import proofs.«122767_j12850542149908_2_alg».proof.Proof.Gen.Pre_finite_inputs
import proofs.«122767_j12850542149908_2_alg».proof.Proof.RefIsSpec
import proofs.«122767_j12850542149908_2_alg».proof.Proof.KernelValue
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The kernel's result array ends at the specification of its arguments, the reference's at its ten operations'
    term of arguments that agree with the kernel's, and that term is the specification. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
